-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x768 : Shape := ⟨3, ![16, 1024, 768]⟩
abbrev S768x768 : Shape := ⟨2, ![768, 768]⟩
abbrev S768 : Shape := ⟨1, ![768]⟩
abbrev S_ : Shape := ⟨0, ![]⟩

class Facts : Prop where
  bcast_S_S16x1024x768 : S_.BroadcastsInDim S16x1024x768 (![] : Fin 0 → Fin S16x1024x768.rank)
  reducesTo_S16x1024x768_S_d0_1_2 : S16x1024x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S16x1024x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S16x1024x768 .f32 := Host.absf main_arg0
  let main_cst : FVec F S_ .f32 := constant S_ .f32 0x7F800000#32
  let main_v1 : FVec F S16x1024x768 .f32 := broadcastInDim S16x1024x768 ![] bcast_S_S16x1024x768 main_cst
  let main_v2 : IVec S16x1024x768 1 := cmpf .olt main_v0 main_v1
  let main_c : IVec S_ 1 := constantI S_ 1 1#1
  let main_v3 : IVec S_ 1 := (fun x v => Host.reduce IntOp.andi x v reducesTo_S16x1024x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S16x1024x768 : Shape := ⟨3, ![16, 1024, 768]⟩
abbrev S768x768 : Shape := ⟨2, ![768, 768]⟩
abbrev S768 : Shape := ⟨1, ![768]⟩
abbrev S1x768 : Shape := ⟨2, ![1, 768]⟩
abbrev S16x768x1024 : Shape := ⟨3, ![16, 768, 1024]⟩
abbrev S1x1024x768 : Shape := ⟨3, ![1, 1024, 768]⟩
abbrev S1x768x1024 : Shape := ⟨3, ![1, 768, 1024]⟩
abbrev S1024x768 : Shape := ⟨2, ![1024, 768]⟩
abbrev S512x768 : Shape := ⟨2, ![512, 768]⟩
abbrev S512x1024 : Shape := ⟨2, ![512, 1024]⟩
abbrev S512 : Shape := ⟨1, ![512]⟩
abbrev S512x1 : Shape := ⟨2, ![512, 1]⟩
abbrev S768x512 : Shape := ⟨2, ![768, 512]⟩
abbrev S1x768x512 : Shape := ⟨3, ![1, 768, 512]⟩

abbrev nBuf : Space → Nat
  | .hbm => 19
  | .vmem => 15
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .bf16⟩
  | .hbm, ⟨9, _⟩ => ⟨S768x768, .f32⟩
  | .hbm, ⟨10, _⟩ => ⟨S768x768, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S16x768x1024, .f32⟩
  | .hbm, ⟨17, _⟩ => ⟨S16x768x1024, .f32⟩
  | .hbm, ⟨18, _⟩ => ⟨S16x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S1x768x1024, .f32⟩
  | .local _ .vmem, ⟨3, _⟩ => ⟨S1x768x1024, .f32⟩
  | .local _ .vmem, ⟨4, _⟩ => ⟨S768x768, .bf16⟩
  | .local _ .vmem, ⟨5, _⟩ => ⟨S1x768, .f32⟩
  | .local _ .vmem, ⟨6, _⟩ => ⟨S768x768, .bf16⟩
  | .local _ .vmem, ⟨7, _⟩ => ⟨S1x768, .f32⟩
  | .local _ .vmem, ⟨8, _⟩ => ⟨S768x768, .bf16⟩
  | .local _ .vmem, ⟨9, _⟩ => ⟨S1x768, .f32⟩
  | .local _ .vmem, ⟨10, _⟩ => ⟨S1x768x1024, .f32⟩
  | .local _ .vmem, ⟨11, _⟩ => ⟨S1x768x1024, .f32⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S768x768_S768x768_1_0 : S768x768.Transposes [1, 0] S768x768
  bitsLt_bf16_f32 : FTy.bits .bf16 < FTy.bits .f32
  shapeCasts_S768_S1x768 : S768.ShapeCasts S1x768
  shapeCasts_S16x1024x768_S16x768x1024 : S16x1024x768.ShapeCasts S16x768x1024
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  packedbf16_S1024x768_S1024x768_0_0 : (Rect.unit (s := S1024x768) ![0, 0] S1024x768.size inb_S1024x768_S1024x768_0_0).PackedRows (EltTy.packing .bf16)
  inb_S1024x768_S512x768_0_0 : ∀ a, (![0, 0] : Fin 2 → Nat) a + S512x768.size a ≤ S1024x768.size a
  h_S512x768 : 0 < S512x768.numel
  reduces_S512x1024_S512 : S512x1024.Reduces [1] S512
  shapeCasts_S512_S512x1 : S512.ShapeCasts S512x1
  broadcasts_S512x1_S512x1024 : S512x1.Broadcasts S512x1024
  inb_S1x768x1024_S1x768x512_0_0_0 : ∀ a, (![0, 0, 0] : Fin 3 → Nat) a + S1x768x512.size a ≤ S1x768x1024.size a
  h_S1x768x512 : 0 < S1x768x512.numel
  shapeCasts_S1x768x512_S768x512 : S1x768x512.ShapeCasts S768x512
  shapeCasts_S768x512_S1x768x512 : S768x512.ShapeCasts S1x768x512
  inb_S1024x768_S512x768_512_0 : ∀ a, (![512, 0] : Fin 2 → Nat) a + S512x768.size a ≤ S1024x768.size a
  inb_S1x768x1024_S1x768x512_0_0_512 : ∀ a, (![0, 0, 512] : Fin 3 → Nat) a + S1x768x512.size a ≤ S1x768x1024.size a
  shapeCasts_S16x768x1024_S16x1024x768 : S16x768x1024.ShapeCasts S16x1024x768
  dot_S1024x768_S768x768_S1024x768_1_0_0_1_n_n_wf : DotDims.WF S1024x768 S768x768 S1024x768 [1] [0] [0] [1] [] []
  dot_S512x768_S1024x768_S512x1024_1_1_0_0_n_n_wf : DotDims.WF S512x768 S1024x768 S512x1024 [1] [1] [0] [0] [] []
  dot_S1024x768_S512x1024_S768x512_0_1_1_0_n_n_wf : DotDims.WF S1024x768 S512x1024 S768x512 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S16x1024x768.size a
  hwx0_0 : ∀ i : grid0.Coords, EltTy.bits .f32 = 32 ∨ (Rect.block (s := S16x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1024.size a ≤ S16x768x1024.size a
  hwx0_1 : ∀ i : grid0.Coords, EltTy.bits .f32 = 32 ∨ (Rect.block (s := S16x768x1024) S1x768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x768.size a ≤ S768x768.size a
  hwx0_4 : ∀ i : grid0.Coords, EltTy.bits .bf16 = 32 ∨ (Rect.block (s := S768x768) S768x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x768x1024.size a ≤ S16x768x1024.size a
  hwx0_8 : ∀ i : grid0.Coords, EltTy.bits .f32 = 32 ∨ (Rect.block (s := S16x768x1024) S1x768x1024.size (cc0_transform_8 i) (hinb0_8 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf
def dot_S1024x768_S512x1024_S768x512_0_1_1_0_n_n : DotDims S1024x768 S512x1024 S768x512 where
  lhsContracting := [0]
  rhsContracting := [1]
  lhsNonContracting := [1]
  rhsNonContracting := [0]
  lhsBatch := []
  rhsBatch := []
  wf := dot_S1024x768_S512x1024_S768x512_0_1_1_0_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S768x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x768x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1024x768 : Shape := ⟨3, ![16, 1024, 768]⟩
abbrev S768x768 : Shape := ⟨2, ![768, 768]⟩
abbrev S768 : Shape := ⟨1, ![768]⟩
abbrev S1x1x768 : Shape := ⟨3, ![1, 1, 768]⟩
abbrev S16x1024x1024 : Shape := ⟨3, ![16, 1024, 1024]⟩
abbrev S_ : Shape := ⟨0, ![]⟩
abbrev S16x1024 : Shape := ⟨2, ![16, 1024]⟩
abbrev S16x1024x1 : Shape := ⟨3, ![16, 1024, 1]⟩
abbrev S16x768x1024 : Shape := ⟨3, ![16, 768, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S16x1024x768, .f32⟩
  | .hbm, ⟨8, _⟩ => ⟨S1x1x768, .f32⟩
  | .hbm, ⟨9, _⟩ => ⟨S16x1024x768, .f32⟩
  | .hbm, ⟨10, _⟩ => ⟨S16x1024x768, .f32⟩
  | .hbm, ⟨11, _⟩ => ⟨S16x1024x768, .f32⟩
  | .hbm, ⟨12, _⟩ => ⟨S1x1x768, .f32⟩
  | .hbm, ⟨13, _⟩ => ⟨S16x1024x768, .f32⟩
  | .hbm, ⟨14, _⟩ => ⟨S16x1024x768, .f32⟩
  | .hbm, ⟨15, _⟩ => ⟨S16x1024x768, .f32⟩
  | .hbm, ⟨16, _⟩ => ⟨S1x1x768, .f32⟩
  | .hbm, ⟨17, _⟩ => ⟨S16x1024x768, .f32⟩
  | .hbm, ⟨18, _⟩ => ⟨S16x1024x768, .f32⟩
  | .hbm, ⟨19, _⟩ => ⟨S16x1024x1024, .f32⟩
  | .hbm, ⟨20, _⟩ => ⟨S_, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024x1, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x1024, .f32⟩
  | .hbm, ⟨36, _⟩ => ⟨S16x1024x1024, .f32⟩
  | .hbm, ⟨37, _⟩ => ⟨S16x1024x768, .f32⟩
  | .hbm, ⟨38, _⟩ => ⟨S16x768x1024, .f32⟩
  | .hbm, ⟨39, _⟩ => ⟨S16x1024x768, .f32⟩
  | .hbm, ⟨40, _⟩ => ⟨S16x1024x768, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x1024x768_0_1_2 : S1x1x768.BroadcastsInDim S16x1024x768 (![0, 1, 2] : Fin 3 → Fin S16x1024x768.rank)
  bcast_S_S16x1024x1024 : S_.BroadcastsInDim S16x1024x1024 (![] : Fin 0 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  transposes_S16x1024x768_S16x768x1024_0_2_1 : S16x1024x768.Transposes [0, 2, 1] S16x768x1024
  shapeCasts_S16x768x1024_S16x1024x768 : S16x768x1024.ShapeCasts S16x1024x768
  dot_S16x1024x768_S768x768_S16x1024x768_2_1_01_0_n_n_wf : DotDims.WF S16x1024x768 S768x768 S16x1024x768 [2] [1] [0, 1] [0] [] []
  dot_S16x1024x768_S16x1024x768_S16x1024x1024_2_2_1_1_0_0_wf : DotDims.WF S16x1024x768 S16x1024x768 S16x1024x1024 [2] [2] [1] [1] [0] [0]
  dot_S16x1024x1024_S16x1024x768_S16x1024x768_2_1_1_2_0_0_wf : DotDims.WF S16x1024x1024 S16x1024x768 S16x1024x768 [2] [1] [1] [2] [0] [0]

variable [Facts₀]

def dot_S16x1024x768_S768x768_S16x1024x768_2_1_01_0_n_n : DotDims S16x1024x768 S768x768 S16x1024x768 where
  lhsContracting := [2]
  rhsContracting := [1]
  lhsNonContracting := [0, 1]
  rhsNonContracting := [0]
  lhsBatch := []
  rhsBatch := []
  wf := dot_S16x1024x768_S768x768_S16x1024x768_2_1_01_0_n_n_wf
def dot_S16x1024x768_S16x1024x768_S16x1024x1024_2_2_1_1_0_0 : DotDims S16x1024x768 S16x1024x768 S16x1024x1024 where
  lhsContracting := [2]
  rhsContracting := [2]
  lhsNonContracting := [1]
  rhsNonContracting := [1]
  lhsBatch := [0]
  rhsBatch := [0]
  wf := dot_S16x1024x768_S16x1024x768_S16x1024x1024_2_2_1_1_0_0_wf
def dot_S16x1024x1024_S16x1024x768_S16x1024x768_2_1_1_2_0_0 : DotDims S16x1024x1024 S16x1024x768 S16x1024x768 where
  lhsContracting := [2]
  rhsContracting := [1]
  lhsNonContracting := [1]
  rhsNonContracting := [2]
  lhsBatch := [0]
  rhsBatch := [0]
  wf := dot_S16x1024x1024_S16x1024x768_S16x1024x768_2_1_1_2_0_0_wf

class Facts : Prop extends Facts₀ where

variable [Facts]
-- ==== Proof.Spec.lean ====
/-
  Single-head self-attention over one batch element, as plain functions on the extended reals.

  A token row `xr` (768 features) is projected by a linear layer `lin xr W β = xr · Wᵀ + β`. For a query row `qr` and
  the key rows `K`, the scaled scores are `score qr K e = (qr · K e) · s` with `s` the single-precision word both
  programs multiply by (their rounding of 1/√768). The soft-max of a score row `σ` subtracts the row's largest entry
  `top σ` (the maximum taken from −∞), exponentiates, and divides by the sum of the exponentials; the attended value at
  feature `n` is `mix qr K V n = Σₑ V e n · soft (score qr K) e`.

  The whole block: with `x` of shape [16, 1024, 768], entry (b, c, n) of the attended values is `cell … b n c`. The block
  lays these out TRANSPOSED, as a [16, 768, 1024] array, re-reads that buffer as [16, 1024, 768] and adds `x`: position
  `i` of the result, whose row-major offset is `flat i`, holds the transposed entry (flat / (768·1024), flat / 1024 mod 768,
  flat mod 1024) plus `x i`.
-/
import Idealize.ShloMosaic.PureOps.Ideal
import Idealize.ShloMosaic.Lib.ValueIdx

noncomputable section

open scoped BigOperators

namespace Cert.Attn

open Idealize.ShloMosaic Idealize.ShloMosaic.ValueIdx

/-- The scale both programs multiply the scores by: the f32 word of 1/√768. -/
abbrev scale : EReal := Ideal.ofBits .f32 0x3D13CD3A#32

/-- The value the row maximum starts from: the f32 word of −∞. -/
abbrev floor : EReal := Ideal.ofBits .f32 0xFF800000#32

/-- One output feature of a linear layer on a token row: `Σₙ xr n · W d n + β d`. -/
def lin (xr : Fin 768 → EReal) (W : Fin 768 → Fin 768 → EReal) (β : Fin 768 → EReal) (d : Fin 768) : EReal :=
  (∑ n : Fin 768, xr n * W d n) + β d

/-- The scaled score of a query row against key row `e`. -/
def score (qr : Fin 768 → EReal) (K : Fin 1024 → Fin 768 → EReal) (e : Fin 1024) : EReal :=
  (∑ d : Fin 768, qr d * K e d) * scale

/-- The largest entry of a score row, taken from −∞. -/
def top (σ : Fin 1024 → EReal) : EReal := (Finset.univ : Finset (Fin 1024)).fold max floor σ

/-- The unnormalised soft-max weight. -/
def weight (σ : Fin 1024 → EReal) (e : Fin 1024) : EReal := Ideal.exp (σ e - top σ)

/-- The soft-max of a score row. -/
def soft (σ : Fin 1024 → EReal) (e : Fin 1024) : EReal := Ideal.div (weight σ e) (∑ e' : Fin 1024, weight σ e')

/-- The attended value at feature `n` for one query row. -/
def mix (qr : Fin 768 → EReal) (K V : Fin 1024 → Fin 768 → EReal) (n : Fin 768) : EReal :=
  ∑ e : Fin 1024, V e n * soft (score qr K) e

/-- Token `c` of batch element `b`, projected by the layer (W, β). -/
def proj (x : (⟨3, ![16, 1024, 768]⟩ : Shape).Idx → EReal) (W : (⟨2, ![768, 768]⟩ : Shape).Idx → EReal)
    (β : (⟨1, ![768]⟩ : Shape).Idx → EReal) (b : Fin 16) (c : Fin 1024) : Fin 768 → EReal :=
  lin (fun n => x (ix3 b c n)) (fun d n => W (ix2 d n)) (fun d => β (ix1 d))

/-- The attended value of batch element `b`, query token `c`, feature `n`. -/
def cell (x : (⟨3, ![16, 1024, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (b : Fin 16) (n : Fin 768) (c : Fin 1024) : EReal :=
  mix (proj x Wq bq b c) (fun e => proj x Wk bk b e) (fun e => proj x Wv bv b e) n

/-- The row-major offset of a position of a [16, 1024, 768] array. -/
abbrev flat (i : (⟨3, ![16, 1024, 768]⟩ : Shape).Idx) : ℕ := ((i 0).val * 1024 + (i 1).val) * 768 + (i 2).val

theorem flat_lt (i : (⟨3, ![16, 1024, 768]⟩ : Shape).Idx) : flat i < 16 * 1024 * 768 := by
  have h0 : (i 0).val < 16 := (i 0).isLt
  have h1 : (i 1).val < 1024 := (i 1).isLt
  have h2 : (i 2).val < 768 := (i 2).isLt
  show ((i 0).val * 1024 + (i 1).val) * 768 + (i 2).val < 16 * 1024 * 768
  omega

/-- The same offset read as a position of a [16, 768, 1024] array: its three coordinates. -/
def tB (i : (⟨3, ![16, 1024, 768]⟩ : Shape).Idx) : Fin 16 := ⟨flat i / 786432, by have := flat_lt i; omega⟩
def tN (i : (⟨3, ![16, 1024, 768]⟩ : Shape).Idx) : Fin 768 := ⟨flat i / 1024 % 768, Nat.mod_lt _ (by decide)⟩
def tC (i : (⟨3, ![16, 1024, 768]⟩ : Shape).Idx) : Fin 1024 := ⟨flat i % 1024, Nat.mod_lt _ (by decide)⟩

theorem t_flat (i : (⟨3, ![16, 1024, 768]⟩ : Shape).Idx) :
    ((tB i).val * 768 + (tN i).val) * 1024 + (tC i).val = flat i := by
  have := flat_lt i
  show (flat i / 786432 * 768 + flat i / 1024 % 768) * 1024 + flat i % 1024 = flat i
  omega

/-- The block's result: the transposed attended values re-read in the input's layout, plus the input. -/
def result (x : (⟨3, ![16, 1024, 768]⟩ : Shape).Idx → EReal)
    (Wq : (⟨2, ![768, 768]⟩ : Shape).Idx → EReal) (bq : (⟨1, ![768]⟩ : Shape).Idx → EReal)
    (Wk : (⟨2, ![768, 768]⟩ : Shape).Idx → EReal) (bk : (⟨1, ![768]⟩ : Shape).Idx → EReal)
    (Wv : (⟨2, ![768, 768]⟩ : Shape).Idx → EReal) (bv : (⟨1, ![768]⟩ : Shape).Idx → EReal)
    (i : (⟨3, ![16, 1024, 768]⟩ : Shape).Idx) : EReal :=
  cell x Wq bq Wk bk Wv bv (tB i) (tN i) (tC i) + x i

end Cert.Attn

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibColsDot.lean ====
/-
  A matrix product of two rank-2 operands that contracts the FIRST axis of the left operand against the LAST axis of
  the right one (`xᵀ · yᵀ`), read at an entry.

  For dimension numbers `d` over operands of shapes [K, M] and [N, K] and a result of shape [M, N] whose one
  contracted axis is the first of the left operand and the second of the right — given as the four coordinate facts of
  `d`'s operand index maps — a `tpu.matmul` into the zero accumulator at the ideal instance is, at entry (p, q),

      Σ_{k < K} lhs[k, p] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `xᵀ · yᵀ` into the zero accumulator, at entry (p, q): the sum over the shared axis of the products of column `p` of
    the left operand and row `q` of the right. The hypotheses say where the record's operand index maps read: the
    left operand at (contraction position, row of the entry), the right at (column of the entry, contraction
    position). -/
theorem cols_dot_zero {M N K : Nat} {φ₁ φ₂ : FTy}
    (d : DotDims ⟨2, ![K, M]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (c ⟨0, by omega⟩).val)
    (hl1 : ∀ (j : (⟨2, ![M, N]⟩ : Shape).Idx) (c : d.contr.Idx), (d.lhsIdx j c 1).val = (j 0).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![K, M]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 k p) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Idealize.ShloMosaic.ValueIdx

end
-- ==== Proof.Payload.lean ====
/-
  The body's arithmetic at one entry, over the extended reals.

  The body first fills three scratch matrices with the projections of the token block: entry (c, d) of each is
  `Σₙ x[c, n] · Wᵀ[n, d] + β[d]` (the weights arrive transposed, the bias as a one-row matrix). For each half of the
  query rows it then forms the scores against all key rows, scales them, takes the soft-max along the key axis
  and multiplies the value matrix FROM THE LEFT, transposed: entry (n, r) of the stored tile is
  `Σₑ v[e, n] · soft[r, e]` plus the residual tile's entry (n, r). Every step is read at an entry given by coordinates.
-/
import proofs.«143948_j55284819034537_2_alg».proof.Proof.Gen.KernelIdeal.Skeleton
import proofs.«143948_j55284819034537_2_alg».proof.Proof.Spec
import proofs.«143948_j55284819034537_2_alg».proof.Proof.LibColumn
import proofs.«143948_j55284819034537_2_alg».proof.Proof.LibMatDot
import proofs.«143948_j55284819034537_2_alg».proof.Proof.LibRowsDot
import proofs.«143948_j55284819034537_2_alg».proof.Proof.LibColsDot
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Attn Cert.Lora

/-! ## Where the three products read their operands -/

theorem d1_lhs0 (j : S1024x768.Idx) (q : dot_S1024x768_S768x768_S1024x768_1_0_0_1_n_n.contr.Idx) : (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem d1_lhs1 (j : S1024x768.Idx) (q : dot_S1024x768_S768x768_S1024x768_1_0_0_1_n_n.contr.Idx) : (dot_S1024x768_S768x768_S1024x768_1_0_0_1_n_n.lhsIdx j q 1).val = (q ⟨0, by decide⟩).val :=
  dot_S1024x768_S768x768_S1024x768_1_0_0_1_n_n.lhsIdx_val_of_single rfl j q
theorem d1_rhs0 (j : S1024x768.Idx) (q : dot_S1024x768_S768x768_S1024x768_1_0_0_1_n_n.contr.Idx) : (dot_S1024x768_S768x768_S1024x768_1_0_0_1_n_n.rhsIdx j q 0).val = (q ⟨0, by decide⟩).val :=
  dot_S1024x768_S768x768_S1024x768_1_0_0_1_n_n.rhsIdx_val_of_single rfl j q
theorem d1_rhs1 (j : S1024x768.Idx) (q : dot_S1024x768_S768x768_S1024x768_1_0_0_1_n_n.contr.Idx) : (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

theorem d2_lhs0 (j : S512x1024.Idx) (q : dot_S512x768_S1024x768_S512x1024_1_1_0_0_n_n.contr.Idx) : (dot_S512x768_S1024x768_S512x1024_1_1_0_0_n_n.lhsIdx j q 0).val = (j 0).val := by
  unfold DotDims.lhsIdx
  rw [dif_neg (show ¬(0 : Fin S512x768.rank) ∈ dot_S512x768_S1024x768_S512x1024_1_1_0_0_n_n.lhsBatch by decide), dif_pos (show (0 : Fin S512x768.rank) ∈ dot_S512x768_S1024x768_S512x1024_1_1_0_0_n_n.lhsNonContracting by decide)]
  rfl
theorem d2_lhs1 (j : S512x1024.Idx) (q : dot_S512x768_S1024x768_S512x1024_1_1_0_0_n_n.contr.Idx) : (dot_S512x768_S1024x768_S512x1024_1_1_0_0_n_n.lhsIdx j q 1).val = (q ⟨0, by decide⟩).val :=
  dot_S512x768_S1024x768_S512x1024_1_1_0_0_n_n.lhsIdx_val_of_single rfl j q
theorem d2_rhs0 (j : S512x1024.Idx) (q : dot_S512x768_S1024x768_S512x1024_1_1_0_0_n_n.contr.Idx) : (dot_S512x768_S1024x768_S512x1024_1_1_0_0_n_n.rhsIdx j q 0).val = (j 1).val := by
  unfold DotDims.rhsIdx
  rw [dif_neg (show ¬(0 : Fin S1024x768.rank) ∈ dot_S512x768_S1024x768_S512x1024_1_1_0_0_n_n.rhsBatch by decide), dif_pos (show (0 : Fin S1024x768.rank) ∈ dot_S512x768_S1024x768_S512x1024_1_1_0_0_n_n.rhsNonContracting by decide)]
  rfl
theorem d2_rhs1 (j : S512x1024.Idx) (q : dot_S512x768_S1024x768_S512x1024_1_1_0_0_n_n.contr.Idx) : (dot_S512x768_S1024x768_S512x1024_1_1_0_0_n_n.rhsIdx j q 1).val = (q ⟨0, by decide⟩).val :=
  dot_S512x768_S1024x768_S512x1024_1_1_0_0_n_n.rhsIdx_val_of_single rfl j q

theorem d3_lhs0 (j : S768x512.Idx) (q : dot_S1024x768_S512x1024_S768x512_0_1_1_0_n_n.contr.Idx) : (dot_S1024x768_S512x1024_S768x512_0_1_1_0_n_n.lhsIdx j q 0).val = (q ⟨0, by decide⟩).val :=
  dot_S1024x768_S512x1024_S768x512_0_1_1_0_n_n.lhsIdx_val_of_single rfl j q
theorem d3_lhs1 (j : S768x512.Idx) (q : dot_S1024x768_S512x1024_S768x512_0_1_1_0_n_n.contr.Idx) : (dot_S1024x768_S512x1024_S768x512_0_1_1_0_n_n.lhsIdx j q 1).val = (j 0).val := by
  unfold DotDims.lhsIdx
  rw [dif_neg (show ¬(1 : Fin S1024x768.rank) ∈ dot_S1024x768_S512x1024_S768x512_0_1_1_0_n_n.lhsBatch by decide), dif_pos (show (1 : Fin S1024x768.rank) ∈ dot_S1024x768_S512x1024_S768x512_0_1_1_0_n_n.lhsNonContracting by decide)]
  rfl
theorem d3_rhs0 (j : S768x512.Idx) (q : dot_S1024x768_S512x1024_S768x512_0_1_1_0_n_n.contr.Idx) : (dot_S1024x768_S512x1024_S768x512_0_1_1_0_n_n.rhsIdx j q 0).val = (j 1).val := by
  unfold DotDims.rhsIdx
  rw [dif_neg (show ¬(0 : Fin S512x1024.rank) ∈ dot_S1024x768_S512x1024_S768x512_0_1_1_0_n_n.rhsBatch by decide), dif_pos (show (0 : Fin S512x1024.rank) ∈ dot_S1024x768_S512x1024_S768x512_0_1_1_0_n_n.rhsNonContracting by decide)]
  rfl
theorem d3_rhs1 (j : S768x512.Idx) (q : dot_S1024x768_S512x1024_S768x512_0_1_1_0_n_n.contr.Idx) : (dot_S1024x768_S512x1024_S768x512_0_1_1_0_n_n.rhsIdx j q 1).val = (q ⟨0, by decide⟩).val :=
  dot_S1024x768_S512x1024_S768x512_0_1_1_0_n_n.rhsIdx_val_of_single rfl j q

/-! ## A projection -/

/-- Entry (c, d) of a stored projection: the linear layer applied to token row `c`, with the weight matrix read
    transposed and the bias read from its one row. -/
theorem proj_apply (x0 : FVec Ideal S1x1024x768 .f32) (w : FVec Ideal S768x768 .bf16) (β : FVec Ideal S1x768 .f32)
    (c : Fin 1024) (d : Fin 768) :
    k0_pay3 (F := Ideal) x0 w β (ix2 c d)
      = lin (fun n => x0 (ix3 (0 : Fin 1) c n)) (fun d n => w (ix2 n d)) (fun d => β (ix2 (0 : Fin 1) d)) d := by
  unfold k0_pay3 k0_pay2 lin
  dsimp only
  rw [shapeCast_self, shapeCast_self, shapeCast_self]
  rw [truncf_apply, addf_apply]
  simp only [matmul]
  rw [mat_dot_zero dot_S1024x768_S768x768_S1024x768_1_0_0_1_n_n none rfl rfl d1_lhs0 d1_lhs1 d1_rhs0 d1_rhs1]
  rw [broadcastTo_1b_ab_apply]
  refine congrArg (· + _) (Finset.sum_congr rfl fun n _ => ?_)
  rw [truncf_apply, shapeCast_1ab_ab_apply]

/-- The key projection is the same expression as the query projection, of its own weights and bias. -/
theorem pay4_eq {F : FTy → Type} [FloatOps F] (x0 : Vec F S1x1024x768 .f32) (w : Vec F S768x768 .bf16) (β : Vec F S1x768 .f32) :
    k0_pay4 x0 w β = k0_pay3 x0 w β := rfl

/-- So is the value projection, as the body stores it. -/
theorem pay65_eq {F : FTy → Type} [FloatOps F] (x0 : Vec F S1x1024x768 .f32) (w : Vec F S768x768 .bf16) (β : Vec F S1x768 .f32) :
    k0_pay6 (k0_pay5 x0 w β) = k0_pay3 x0 w β := rfl

/-- A stored projection of a token block that is batch element `b` of an input `X`, under weights that are `W`
    transposed and a bias that is `B` as one row, is the specification's projection of batch element `b`. -/
theorem proj_of_blocks (b : Fin 16) (x0 : FVec Ideal S1x1024x768 .f32) (w : FVec Ideal S768x768 .bf16) (β : FVec Ideal S1x768 .f32)
    (X : (⟨3, ![16, 1024, 768]⟩ : Shape).Idx → EReal) (W : (⟨2, ![768, 768]⟩ : Shape).Idx → EReal) (B : (⟨1, ![768]⟩ : Shape).Idx → EReal)
    (hx : ∀ r n, x0 (ix3 (0 : Fin 1) r n) = X (ix3 b r n)) (hw : ∀ n d, w (ix2 n d) = W (ix2 d n))
    (hb : ∀ d, β (ix2 (0 : Fin 1) d) = B (ix1 d)) (r : Fin 1024) (d : Fin 768) :
    k0_pay3 (F := Ideal) x0 w β (ix2 r d) = proj X W B b r d := by
  rw [proj_apply]
  unfold proj lin
  exact congrArg₂ (· + ·) (Finset.sum_congr rfl fun n _ => congrArg₂ (· * ·) (hx r n) (hw n d)) (hb d)

/-! ## The reductions along the key axis -/

/-- A row index of a [512, 1024] tile with key position `k` put back is (r, k). -/
theorem lift_lane (h : S512x1024.Reduces [1] S512) (r : Fin 512) (k : Fin (S512x1024.size 1)) :
    h.lift (ix1 r) k = ix2 r (⟨k.val, k.isLt⟩ : Fin 1024) := by
  funext a; apply Fin.ext; fin_cases a <;> rfl

/-- The sum along the key axis, from zero, at row `r`. -/
theorem lane_sum (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ e : Fin 1024, src (ix2 r e) :=
  (Ideal.multiReduction_add_single src 0x00000000#32 h hφ hacc (ix1 r)).trans
    (Finset.sum_congr rfl fun k _ => congrArg src (lift_lane h r k))

/-- The maximum along the key axis, from −∞, at row `r`. -/
theorem lane_max (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r) = top fun e => src (ix2 r e) :=
  (Ideal.multiReduction_maximumf_single src 0xFF800000#32 h hφ hacc (ix1 r)).trans
    (congrArg (fun f : Fin 1024 → EReal => (Finset.univ : Finset (Fin 1024)).fold max floor f)
      (funext fun k => congrArg src (lift_lane h r k)))

/-! ## One half of the query rows -/

/-- The scaled scores of a tile of query rows against all key rows, at (r, e). -/
theorem scores_apply (K : FVec Ideal S1024x768 .bf16) (qt : FVec Ideal S512x768 .bf16) (r : Fin 512) (e : Fin 1024) :
    mulf (matmul dot_S512x768_S1024x768_S512x1024_1_1_0_0_n_n none qt K (constant (F := Ideal) S512x1024 .f32 0x00000000#32))
        (broadcast S512x1024 (Scalar.ofBits (F := Ideal) .f32 0x3D13CD3A#32)) (ix2 r e)
      = score (fun d => qt (ix2 r d)) (fun e d => K (ix2 e d)) e := by
  rw [mulf_apply, broadcast_apply]
  simp only [matmul]
  rw [rows_dot_zero dot_S512x768_S1024x768_S512x1024_1_1_0_0_n_n none rfl rfl d2_lhs0 d2_lhs1 d2_rhs0 d2_rhs1]
  rfl

/-- The exponentials the body carries from the scores to the normalisation: the soft-max weights. -/
theorem weight_apply (K : FVec Ideal S1024x768 .bf16) (qt : FVec Ideal S512x768 .bf16) (r : Fin 512) (e : Fin 1024) :
    k0_pay8 (F := Ideal) K qt (ix2 r e) = weight (score (fun d => qt (ix2 r d)) (fun e d => K (ix2 e d))) e := by
  unfold k0_pay8 weight
  dsimp only
  show Ideal.exp (_ - _) = _
  rw [broadcastTo_a1_ab_apply, shapeCast_a_a1_apply]
  refine congrArg Ideal.exp (congrArg₂ (· - ·) (scores_apply K qt r e) ((lane_max _ _ _ _ r).trans ?_))
  exact congrArg top (funext fun e' => scores_apply K qt r e')

/-- Entry (n, r) of a stored tile: the attended value of query row `r` at feature `n`, plus the residual tile's entry. -/
theorem tile_apply (K V : FVec Ideal S1024x768 .bf16) (qt : FVec Ideal S512x768 .bf16) (xr : FVec Ideal S1x768x512 .f32)
    (n : Fin 768) (r : Fin 512) :
    k0_pay1 (F := Ideal) V (k0_pay8 K qt) xr (ix3 (0 : Fin 1) n r)
      = mix (fun d => qt (ix2 r d)) (fun e d => K (ix2 e d)) (fun e n => V (ix2 e n)) n + xr (ix3 (0 : Fin 1) n r) := by
  unfold k0_pay1 mix
  dsimp only
  rw [shapeCast_ab_1ab_apply, addf_apply, shapeCast_1ab_ab_apply]
  simp only [matmul]
  rw [cols_dot_zero dot_S1024x768_S512x1024_S768x512_0_1_1_0_n_n none rfl rfl d3_lhs0 d3_lhs1 d3_rhs0 d3_rhs1]
  refine congrArg (· + _) (Finset.sum_congr rfl fun e _ => congrArg (V (ix2 e n) * ·) ?_)
  rw [truncf_apply, divf_apply, broadcastTo_a1_ab_apply, shapeCast_a_a1_apply]
  unfold soft
  exact congrArg₂ Ideal.div (weight_apply K qt r e)
    ((lane_sum _ _ _ _ r).trans (Finset.sum_congr rfl fun e' _ => weight_apply K qt r e'))

/-- The first tile's stored value is the second's expression at the first half of the query rows. -/
theorem tile0_eq {F : FTy → Type} [FloatOps F] (K V : Vec F S1024x768 .bf16) (qt : Vec F S512x768 .bf16) (xr : Vec F S1x768x512 .f32) :
    k0_pay7 K V qt xr = k0_pay1 V (k0_pay8 K qt) xr := rfl

end Cert.KernelIdeal.Pay

end
-- ==== Proof.Block.lean ====
/-
  What one grid point leaves in its output block.

  At a grid point the body sees one batch element: its token block `x0` [1, 1024, 768], the same buffer re-read as
  [1, 768, 1024] (`x1`, the residual in the output's layout), and the three transposed weight matrices with their
  one-row biases. It stores the output block in two halves along the query axis; both halves are the same expression
  of the projections, the second at query rows 512 … 1023. So position (u, n, c) of the block holds the attended
  value of query token `c` at feature `n` plus the residual at (u, n, c) — one function of the position.
-/
import proofs.«143948_j55284819034537_2_alg».proof.Proof.Gen.KernelIdeal.Frame
import proofs.«143948_j55284819034537_2_alg».proof.Proof.Payload
import Idealize.ShloMosaic.Lib.Pipeline.Value
import Idealize.ShloMosaic.Lib.Tactic

set_option maxRecDepth 16384

noncomputable section

open scoped BigOperators

namespace Cert.KernelIdeal.Blk

open Cert.KernelIdeal Cert.KernelIdeal.Gen Cert.KernelIdeal.Pay Idealize.ShloMosaic Idealize.ShloMosaic.TcCoe Idealize.SL.Sem
open Idealize.ShloMosaic.ValueIdx Cert.Attn

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable {F : FTy → Type} [FloatOps F]

/-- A load of part of a scratch matrix that one whole store filled reads that part of the stored value. -/
theorem readCov_part {sg : RefSig} {κ : Kind} {sp : Space} (v : View sg κ sp S1024x768 .bf16) (w : S1024x768.Idx → Elt F .bf16)
    (r : Rect S1024x768) :
    v.readCov [(⟨Rect.unit ![0, 0] S1024x768.size inb_S1024x768_S1024x768_0_0, w⟩ : View.Piece (Elt F) S1024x768 .bf16)] r.toLoadRect
      = View.ld w r := by
  rw [View.readCov_eq_canon_ld _ _ _ (fun y => ⟨_, List.mem_singleton_self _, View.mem_set_unit_zero hz2 inb_S1024x768_S1024x768_0_0 y⟩),
    View.canon_unit_zero hz2]

/-- The two stores of the body into its output block, last first: the half at query rows 512 … 1023, then the half at
    query rows 0 … 511, each the tile expression of the three stored projections (the queries read at the half's rows)
    and of the matching half of the residual. -/
theorem pieces_eq (c : Dev nD) (i : grid0.Coords) (arg1 : Memref sig .tc .vmem S1x1024x768 .f32) (harg1 : arg1.IsWhole) (arg2 : Memref sig .tc .vmem S1x768x1024 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768x1024 .f32) (harg9 : arg9.IsWhole) (arg10 : Memref sig .tc .vmem S1024x768 .bf16) (harg10 : arg10.IsWhole) (arg11 : Memref sig .tc .vmem S1024x768 .bf16) (harg11 : arg11.IsWhole) (arg12 : Memref sig .tc .vmem S1024x768 .bf16) (harg12 : arg12.IsWhole)
    (x0 : Vec F S1x1024x768 .f32) (x1 : Vec F S1x768x1024 .f32) (x2 : Vec F S768x768 .bf16) (x3 : Vec F S1x768 .f32) (x4 : Vec F S768x768 .bf16) (x5 : Vec F S1x768 .f32) (x6 : Vec F S768x768 .bf16) (x7 : Vec F S1x768 .f32) :
    (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1 =
      [⟨(Rect.unit (s := S1x768x1024) ![0, 0, 512] ![1, 768, 512] inb_S1x768x1024_S1x768x512_0_0_512),
          k0_pay1 (k0_pay6 (k0_pay5 x0 x6 x7))
            (k0_pay8 (k0_pay4 x0 x4 x5) (View.ld (k0_pay3 x0 x2 x3) (Rect.unit (s := S1024x768) ![512, 0] S512x768.size inb_S1024x768_S512x768_512_0)))
            (View.ld x1 (Rect.unit (s := S1x768x1024) ![0, 0, 512] ![1, 768, 512] inb_S1x768x1024_S1x768x512_0_0_512))⟩,
        ⟨(Rect.unit (s := S1x768x1024) ![0, 0, 0] ![1, 768, 512] inb_S1x768x1024_S1x768x512_0_0_0),
          k0_pay7 (k0_pay4 x0 x4 x5) (k0_pay6 (k0_pay5 x0 x6 x7))
            (View.ld (k0_pay3 x0 x2 x3) (Rect.unit (s := S1024x768) ![0, 0] S512x768.size inb_S1024x768_S512x768_0_0))
            (View.ld x1 (Rect.unit (s := S1x768x1024) ![0, 0, 0] ![1, 768, 512] inb_S1x768x1024_S1x768x512_0_0_0))⟩] := by
  unfold kernelRun0_A
  dsimp only
  sl_unfold_words
  simp only [View.readAt_eq_ld, harg1.read_unread, harg2.read_unread, harg3.read_unread, harg4.read_unread, harg5.read_unread,
    harg6.read_unread, harg7.read_unread, harg8.read_unread, View.ld_unit_zero (S := S1x1024x768) hz3, View.ld_unit_zero (S := S768x768) hz2,
    View.ld_unit_zero (S := S1x768) hz2, View.readCov_unit_zero (S := S1024x768) _ hz2]
  rw [readCov_part, readCov_part]

end Pieces

/-! ## The block as one function of its position -/

/-- Position `y` = (u, n, c) of the output block: the attended value of query token `c` at feature `n` — over the stored
    projections of the token block — plus the residual at `y`. -/
def blockG (x0 : FVec Ideal S1x1024x768 .f32) (x1 : FVec Ideal S1x768x1024 .f32) (x2 : FVec Ideal S768x768 .bf16) (x3 : FVec Ideal S1x768 .f32) (x4 : FVec Ideal S768x768 .bf16) (x5 : FVec Ideal S1x768 .f32) (x6 : FVec Ideal S768x768 .bf16) (x7 : FVec Ideal S1x768 .f32) (y : S1x768x1024.Idx) : EReal :=
  mix (fun d => k0_pay3 (F := Ideal) x0 x2 x3 (ix2 (⟨(y 2).val, (y 2).isLt⟩ : Fin 1024) d))
      (fun e d => k0_pay4 (F := Ideal) x0 x4 x5 (ix2 e d))
      (fun e n => k0_pay6 (F := Ideal) (k0_pay5 x0 x6 x7) (ix2 e n)) (⟨(y 1).val, (y 1).isLt⟩ : Fin 768)
    + x1 y

/-- A stored half, at its own position (0, n, r), is the block's function at the position the half's rectangle puts it:
    query row `off + r`. -/
theorem half_apply (x0 : FVec Ideal S1x1024x768 .f32) (x1 : FVec Ideal S1x768x1024 .f32) (x2 : FVec Ideal S768x768 .bf16) (x3 : FVec Ideal S1x768 .f32) (x4 : FVec Ideal S768x768 .bf16) (x5 : FVec Ideal S1x768 .f32) (x6 : FVec Ideal S768x768 .bf16) (x7 : FVec Ideal S1x768 .f32) (off : Nat) (hq : ∀ a, (![off, 0] : Fin 2 → Nat) a + S512x768.size a ≤ S1024x768.size a)
    (ho : ∀ a, (![0, 0, off] : Fin 3 → Nat) a + (![1, 768, 512] : Fin 3 → Nat) a ≤ S1x768x1024.size a)
    (x : (⟨3, ![1, 768, 512]⟩ : Shape).Idx) :
    k0_pay1 (F := Ideal) (k0_pay6 (F := Ideal) (k0_pay5 (F := Ideal) x0 x6 x7))
        (k0_pay8 (F := Ideal) (k0_pay4 (F := Ideal) x0 x4 x5)
          (View.ld (Val := Elt Ideal) (e' := .bf16) (k0_pay3 (F := Ideal) x0 x2 x3) (Rect.unit (s := S1024x768) ![off, 0] S512x768.size hq)))
        (View.ld (Val := Elt Ideal) (e' := .f32) x1 (Rect.unit (s := S1x768x1024) ![0, 0, off] ![1, 768, 512] ho)) x
      = blockG x0 x1 x2 x3 x4 x5 x6 x7 ((Rect.unit (s := S1x768x1024) ![0, 0, off] ![1, 768, 512] ho).emb x) := by
  obtain ⟨u, n, r, rfl⟩ : ∃ (u : Fin 1) (n : Fin 768) (r : Fin 512), x = ix3 u n r := ⟨x 0, x 1, x 2, eq_ix3 x⟩
  obtain rfl : u = 0 := Subsingleton.elim _ _
  rw [tile_apply]
  unfold blockG
  refine congrArg₂ (· + ·) ?_ rfl
  refine congrArg₂ (fun q n' => mix q (fun e d => k0_pay4 (F := Ideal) x0 x4 x5 (ix2 e d))
    (fun e n => k0_pay6 (F := Ideal) (k0_pay5 x0 x6 x7) (ix2 e n)) n') (funext fun d => ?_) (Fin.ext ?_)
  · refine congrArg (k0_pay3 (F := Ideal) x0 x2 x3) (funext fun a => Fin.ext ?_)
    match a with
    | ⟨0, _⟩ => show off + 1 * r.val = off + 1 * r.val; rfl
    | ⟨1, _⟩ => show 0 + 1 * d.val = d.val; omega
  · show n.val = 0 + 1 * n.val; omega

/-- When the token block is batch element `b` of an input `X`, the residual block is batch element `b` of an array `XR`,
    the weight blocks are the matrices `Wq`, `Wk`, `Wv` transposed and the bias blocks the vectors as one row, position
    (u, n, r) of the block holds the specification's attended value of (b, n, r) plus `XR` at (b, n, r). -/
theorem blockG_eq (b : Fin 16) (x0 : FVec Ideal S1x1024x768 .f32) (x1 : FVec Ideal S1x768x1024 .f32) (x2 : FVec Ideal S768x768 .bf16) (x3 : FVec Ideal S1x768 .f32) (x4 : FVec Ideal S768x768 .bf16) (x5 : FVec Ideal S1x768 .f32) (x6 : FVec Ideal S768x768 .bf16) (x7 : FVec Ideal S1x768 .f32)
    (X : (⟨3, ![16, 1024, 768]⟩ : Shape).Idx → EReal) (XR : (⟨3, ![16, 768, 1024]⟩ : Shape).Idx → EReal)
    (Wq : (⟨2, ![768, 768]⟩ : Shape).Idx → EReal) (Bq : (⟨1, ![768]⟩ : Shape).Idx → EReal)
    (Wk : (⟨2, ![768, 768]⟩ : Shape).Idx → EReal) (Bk : (⟨1, ![768]⟩ : Shape).Idx → EReal)
    (Wv : (⟨2, ![768, 768]⟩ : Shape).Idx → EReal) (Bv : (⟨1, ![768]⟩ : Shape).Idx → EReal)
    (hx : ∀ r n, x0 (ix3 (0 : Fin 1) r n) = X (ix3 b r n)) (hxr : ∀ u n r, x1 (ix3 u n r) = XR (ix3 b n r))
    (hwq : ∀ n d, x2 (ix2 n d) = Wq (ix2 d n)) (hbq : ∀ d, x3 (ix2 (0 : Fin 1) d) = Bq (ix1 d))
    (hwk : ∀ n d, x4 (ix2 n d) = Wk (ix2 d n)) (hbk : ∀ d, x5 (ix2 (0 : Fin 1) d) = Bk (ix1 d))
    (hwv : ∀ n d, x6 (ix2 n d) = Wv (ix2 d n)) (hbv : ∀ d, x7 (ix2 (0 : Fin 1) d) = Bv (ix1 d))
    (u : Fin 1) (n : Fin 768) (r : Fin 1024) :
    blockG x0 x1 x2 x3 x4 x5 x6 x7 (ix3 u n r) = cell X Wq Bq Wk Bk Wv Bv b n r + XR (ix3 b n r) := by
  have hq : ∀ r d, k0_pay3 (F := Ideal) x0 x2 x3 (ix2 r d) = proj X Wq Bq b r d :=
    fun r d => proj_of_blocks b x0 x2 x3 X Wq Bq hx hwq hbq r d
  have hk : ∀ e d, k0_pay4 (F := Ideal) x0 x4 x5 (ix2 e d) = proj X Wk Bk b e d :=
    fun e d => (congrFun (pay4_eq (F := Ideal) x0 x4 x5) (ix2 e d)).trans (proj_of_blocks b x0 x4 x5 X Wk Bk hx hwk hbk e d)
  have hv : ∀ e d, k0_pay6 (F := Ideal) (k0_pay5 x0 x6 x7) (ix2 e d) = proj X Wv Bv b e d :=
    fun e d => (congrFun (pay65_eq (F := Ideal) x0 x6 x7) (ix2 e d)).trans (proj_of_blocks b x0 x6 x7 X Wv Bv hx hwv hbv e d)
  unfold blockG cell
  simp only [hq, hk, hv]
  rw [hxr]

/-- What the body leaves in its output block is that function. -/
theorem out_apply (c : Dev nD) (i : grid0.Coords) (arg1 : Memref sig .tc .vmem S1x1024x768 .f32) (harg1 : arg1.IsWhole) (arg2 : Memref sig .tc .vmem S1x768x1024 .f32) (harg2 : arg2.IsWhole) (arg3 : Memref sig .tc .vmem S768x768 .bf16) (harg3 : arg3.IsWhole) (arg4 : Memref sig .tc .vmem S1x768 .f32) (harg4 : arg4.IsWhole) (arg5 : Memref sig .tc .vmem S768x768 .bf16) (harg5 : arg5.IsWhole) (arg6 : Memref sig .tc .vmem S1x768 .f32) (harg6 : arg6.IsWhole) (arg7 : Memref sig .tc .vmem S768x768 .bf16) (harg7 : arg7.IsWhole) (arg8 : Memref sig .tc .vmem S1x768 .f32) (harg8 : arg8.IsWhole) (arg9 : Memref sig .tc .vmem S1x768x1024 .f32) (harg9 : arg9.IsWhole) (arg10 : Memref sig .tc .vmem S1024x768 .bf16) (harg10 : arg10.IsWhole) (arg11 : Memref sig .tc .vmem S1024x768 .bf16) (harg11 : arg11.IsWhole) (arg12 : Memref sig .tc .vmem S1024x768 .bf16) (harg12 : arg12.IsWhole)
    (x0 : FVec Ideal S1x1024x768 .f32) (x1 : FVec Ideal S1x768x1024 .f32) (x2 : FVec Ideal S768x768 .bf16) (x3 : FVec Ideal S1x768 .f32) (x4 : FVec Ideal S768x768 .bf16) (x5 : FVec Ideal S1x768 .f32) (x6 : FVec Ideal S768x768 .bf16) (x7 : FVec Ideal S1x768 .f32) :
    out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 = blockG x0 x1 x2 x3 x4 x5 x6 x7 := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7)]
  funext y
  refine View.canon_apply_of_pieces (blockG x0 x1 x2 x3 x4 x5 x6 x7) _ ?_ y (cover0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 y)
  rw [pieces_eq]
  intro p hp
  simp only [List.mem_cons, List.mem_singleton, List.not_mem_nil, or_false] at hp
  rcases hp with rfl | rfl
  · intro x
    exact half_apply x0 x1 x2 x3 x4 x5 x6 x7 512 inb_S1024x768_S512x768_512_0 inb_S1x768x1024_S1x768x512_0_0_512 x
  · intro x
    exact half_apply x0 x1 x2 x3 x4 x5 x6 x7 0 inb_S1024x768_S512x768_0_0 inb_S1x768x1024_S1x768x512_0_0_0 x

end Cert.KernelIdeal.Blk

end
-- ==== Proof.Array.lean ====
/-
  The kernel's program, read: what its result array holds after the run.

  The program transposes the three weight matrices, re-reads the biases as one-row matrices and the input as a
  [16, 768, 1024] array, runs the region over the sixteen batch elements, and re-reads the region's [16, 768, 1024]
  output as [16, 1024, 768]. Grid point `t` sees block `t` of the input and of its re-read copy and the whole of the
  other operands, and writes back block `t` of the output: so position (b, n, c) of the region's output holds the
  attended value of query token `c` of batch element `b` at feature `n`, plus the re-read input at (b, n, c). The sixteen
  blocks tile the output array, and the final re-reading places that array's row-major order in the result.
-/
import proofs.«143948_j55284819034537_2_alg».proof.Proof.Gen.KernelIdeal.Frame
import proofs.«143948_j55284819034537_2_alg».proof.Proof.Block
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

namespace Cert.KernelIdeal.Arr

open Cert.KernelIdeal Cert.KernelIdeal.Gen Cert.KernelIdeal.Pay Cert.KernelIdeal.Blk Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## What the region finds in the operands the host lines prepared -/

theorem V_wq (c : Dev nD) : (V m c main_v1 : S768x768.Idx → Elt Ideal .bf16)
    = truncf (F := Ideal) .bf16 (transpose S768x768 [1, 0] (m ((c : Thread nD τ).loc main_arg1)) transposes_S768x768_S768x768_1_0) bitsLt_bf16_f32 := by
  show StableHlo.after hostOps0 (fun b => m (c, b)) (Proc.devRef .tc main_v1) = _
  after_results

theorem V_wk (c : Dev nD) : (V m c main_v3 : S768x768.Idx → Elt Ideal .bf16)
    = truncf (F := Ideal) .bf16 (transpose S768x768 [1, 0] (m ((c : Thread nD τ).loc main_arg3)) transposes_S768x768_S768x768_1_0) bitsLt_bf16_f32 := by
  show StableHlo.after hostOps0 (fun b => m (c, b)) (Proc.devRef .tc main_v3) = _
  after_results

theorem V_wv (c : Dev nD) : (V m c main_v5 : S768x768.Idx → Elt Ideal .bf16)
    = truncf (F := Ideal) .bf16 (transpose S768x768 [1, 0] (m ((c : Thread nD τ).loc main_arg5)) transposes_S768x768_S768x768_1_0) bitsLt_bf16_f32 := by
  show StableHlo.after hostOps0 (fun b => m (c, b)) (Proc.devRef .tc main_v5) = _
  after_results

theorem V_bq (c : Dev nD) : (V m c main_v6 : S1x768.Idx → Elt Ideal .f32)
    = shapeCast S1x768 (m ((c : Thread nD τ).loc main_arg2)) shapeCasts_S768_S1x768 := by
  show StableHlo.after hostOps0 (fun b => m (c, b)) (Proc.devRef .tc main_v6) = _
  after_results
  rfl

theorem V_bk (c : Dev nD) : (V m c main_v7 : S1x768.Idx → Elt Ideal .f32)
    = shapeCast S1x768 (m ((c : Thread nD τ).loc main_arg4)) shapeCasts_S768_S1x768 := by
  show StableHlo.after hostOps0 (fun b => m (c, b)) (Proc.devRef .tc main_v7) = _
  after_results
  rfl

theorem V_bv (c : Dev nD) : (V m c main_v8 : S1x768.Idx → Elt Ideal .f32)
    = shapeCast S1x768 (m ((c : Thread nD τ).loc main_arg6)) shapeCasts_S768_S1x768 := by
  show StableHlo.after hostOps0 (fun b => m (c, b)) (Proc.devRef .tc main_v8) = _
  after_results
  rfl

theorem V_xr (c : Dev nD) : (V m c main_v9 : S16x768x1024.Idx → Elt Ideal .f32)
    = shapeCast S16x768x1024 (m ((c : Thread nD τ).loc main_arg0)) shapeCasts_S16x1024x768_S16x768x1024 := by
  show StableHlo.after hostOps0 (fun b => m (c, b)) (Proc.devRef .tc main_v9) = _
  after_results
  rfl

/-! ## The blocks a grid point sees -/

/-- The batch element grid point `t` works on. -/
def bOf (t : Fin cfg0.N) : Fin 16 := ⟨t.val, lt_of_lt_of_eq t.isLt N_0⟩

/-- The printed index maps, decided over the grid: the input, its re-read copy and the output move with the grid
    point along the batch axis; every other operand stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The token block of grid point `t` is batch element `t` of the input. -/
theorem blk_x (c : Dev nD) (t : Fin cfg0.N) (u : Fin 1) (r : Fin 1024) (n : Fin 768) :
    iblk m c 0 t (ix3 u r n) = (m ((c : Thread nD τ).loc main_arg0)) (ix3 (bOf t) r n) := by
  obtain ⟨e0, e1, e2, -⟩ := idx_facts t
  rw [← V_main_arg0 m c]
  show V m c main_arg0 (((cfg0.win 0).blk t).view.emb (ix3 u r n)) = V m c main_arg0 (ix3 (bOf t) r n)
  refine congrArg (V m c main_arg0) (funext fun a => Fin.ext ?_)
  match a with
  | ⟨0, _⟩ => show win0_0.index t (0 : Fin 3) * 1 + 1 * u.val = t.val; have := u.isLt; omega
  | ⟨1, _⟩ => show win0_0.index t (1 : Fin 3) * 1024 + 1 * r.val = r.val; omega
  | ⟨2, _⟩ => show win0_0.index t (2 : Fin 3) * 768 + 1 * n.val = n.val; omega

/-- The residual block of grid point `t` is batch element `t` of the input re-read as [16, 768, 1024]. -/
theorem blk_xr (c : Dev nD) (t : Fin cfg0.N) (u : Fin 1) (n : Fin 768) (r : Fin 1024) :
    iblk m c 1 t (ix3 u n r)
      = shapeCast S16x768x1024 (m ((c : Thread nD τ).loc main_arg0)) shapeCasts_S16x1024x768_S16x768x1024 (ix3 (bOf t) n r) := by
  obtain ⟨-, -, -, e0, e1, e2, -⟩ := idx_facts t
  rw [← V_xr m c]
  show V m c main_v9 (((cfg0.win 1).blk t).view.emb (ix3 u n r)) = V m c main_v9 (ix3 (bOf t) n r)
  refine congrArg (V m c main_v9) (funext fun a => Fin.ext ?_)
  match a with
  | ⟨0, _⟩ => show win0_1.index t (0 : Fin 3) * 1 + 1 * u.val = t.val; have := u.isLt; omega
  | ⟨1, _⟩ => show win0_1.index t (1 : Fin 3) * 768 + 1 * n.val = n.val; omega
  | ⟨2, _⟩ => show win0_1.index t (2 : Fin 3) * 1024 + 1 * r.val = r.val; omega

/-- The query weights every grid point sees: the argument matrix, transposed. -/
theorem blk_wq (c : Dev nD) (t : Fin cfg0.N) (n : Fin 768) (d : Fin 768) :
    iblk m c 2 t (ix2 n d) = (m ((c : Thread nD τ).loc main_arg1)) (ix2 d n) := by
  obtain ⟨-, -, -, -, -, -, e20, e21, e30, e31, e40, e41, e50, e51, e60, e61, e70, e71, -⟩ := idx_facts t
  have e : iblk m c 2 t (ix2 n d) = V m c main_v1 (ix2 n d) := by
    show V m c main_v1 (((cfg0.win 2).blk t).view.emb (ix2 n d)) = V m c main_v1 (ix2 n d)
    refine congrArg (V m c main_v1) (funext fun a => Fin.ext ?_)
    match a with
    | ⟨0, _⟩ => show win0_2.index t (0 : Fin 2) * 768 + 1 * n.val = n.val; omega
    | ⟨1, _⟩ => show win0_2.index t (1 : Fin 2) * 768 + 1 * d.val = d.val; omega
  rw [e, V_wq, truncf_apply, transpose_ix2_apply]

/-- The key weights every grid point sees: the argument matrix, transposed. -/
theorem blk_wk (c : Dev nD) (t : Fin cfg0.N) (n : Fin 768) (d : Fin 768) :
    iblk m c 4 t (ix2 n d) = (m ((c : Thread nD τ).loc main_arg3)) (ix2 d n) := by
  obtain ⟨-, -, -, -, -, -, e20, e21, e30, e31, e40, e41, e50, e51, e60, e61, e70, e71, -⟩ := idx_facts t
  have e : iblk m c 4 t (ix2 n d) = V m c main_v3 (ix2 n d) := by
    show V m c main_v3 (((cfg0.win 4).blk t).view.emb (ix2 n d)) = V m c main_v3 (ix2 n d)
    refine congrArg (V m c main_v3) (funext fun a => Fin.ext ?_)
    match a with
    | ⟨0, _⟩ => show win0_4.index t (0 : Fin 2) * 768 + 1 * n.val = n.val; omega
    | ⟨1, _⟩ => show win0_4.index t (1 : Fin 2) * 768 + 1 * d.val = d.val; omega
  rw [e, V_wk, truncf_apply, transpose_ix2_apply]

/-- The value weights every grid point sees: the argument matrix, transposed. -/
theorem blk_wv (c : Dev nD) (t : Fin cfg0.N) (n : Fin 768) (d : Fin 768) :
    iblk m c 6 t (ix2 n d) = (m ((c : Thread nD τ).loc main_arg5)) (ix2 d n) := by
  obtain ⟨-, -, -, -, -, -, e20, e21, e30, e31, e40, e41, e50, e51, e60, e61, e70, e71, -⟩ := idx_facts t
  have e : iblk m c 6 t (ix2 n d) = V m c main_v5 (ix2 n d) := by
    show V m c main_v5 (((cfg0.win 6).blk t).view.emb (ix2 n d)) = V m c main_v5 (ix2 n d)
    refine congrArg (V m c main_v5) (funext fun a => Fin.ext ?_)
    match a with
    | ⟨0, _⟩ => show win0_6.index t (0 : Fin 2) * 768 + 1 * n.val = n.val; omega
    | ⟨1, _⟩ => show win0_6.index t (1 : Fin 2) * 768 + 1 * d.val = d.val; omega
  rw [e, V_wv, truncf_apply, transpose_ix2_apply]

/-- The query bias every grid point sees: the argument vector as one row. -/
theorem blk_bq (c : Dev nD) (t : Fin cfg0.N) (u : Fin 1) (d : Fin 768) :
    iblk m c 3 t (ix2 u d) = (m ((c : Thread nD τ).loc main_arg2)) (ix1 d) := by
  obtain ⟨-, -, -, -, -, -, e20, e21, e30, e31, e40, e41, e50, e51, e60, e61, e70, e71, -⟩ := idx_facts t
  have e : iblk m c 3 t (ix2 u d) = V m c main_v6 (ix2 u d) := by
    show V m c main_v6 (((cfg0.win 3).blk t).view.emb (ix2 u d)) = V m c main_v6 (ix2 u d)
    refine congrArg (V m c main_v6) (funext fun a => Fin.ext ?_)
    match a with
    | ⟨0, _⟩ => show win0_3.index t (0 : Fin 2) * 1 + 1 * u.val = u.val; omega
    | ⟨1, _⟩ => show win0_3.index t (1 : Fin 2) * 768 + 1 * d.val = d.val; omega
  rw [e, V_bq, shapeCast_a_1a_apply]

/-- The key bias every grid point sees: the argument vector as one row. -/
theorem blk_bk (c : Dev nD) (t : Fin cfg0.N) (u : Fin 1) (d : Fin 768) :
    iblk m c 5 t (ix2 u d) = (m ((c : Thread nD τ).loc main_arg4)) (ix1 d) := by
  obtain ⟨-, -, -, -, -, -, e20, e21, e30, e31, e40, e41, e50, e51, e60, e61, e70, e71, -⟩ := idx_facts t
  have e : iblk m c 5 t (ix2 u d) = V m c main_v7 (ix2 u d) := by
    show V m c main_v7 (((cfg0.win 5).blk t).view.emb (ix2 u d)) = V m c main_v7 (ix2 u d)
    refine congrArg (V m c main_v7) (funext fun a => Fin.ext ?_)
    match a with
    | ⟨0, _⟩ => show win0_5.index t (0 : Fin 2) * 1 + 1 * u.val = u.val; omega
    | ⟨1, _⟩ => show win0_5.index t (1 : Fin 2) * 768 + 1 * d.val = d.val; omega
  rw [e, V_bk, shapeCast_a_1a_apply]

/-- The value bias every grid point sees: the argument vector as one row. -/
theorem blk_bv (c : Dev nD) (t : Fin cfg0.N) (u : Fin 1) (d : Fin 768) :
    iblk m c 7 t (ix2 u d) = (m ((c : Thread nD τ).loc main_arg6)) (ix1 d) := by
  obtain ⟨-, -, -, -, -, -, e20, e21, e30, e31, e40, e41, e50, e51, e60, e61, e70, e71, -⟩ := idx_facts t
  have e : iblk m c 7 t (ix2 u d) = V m c main_v8 (ix2 u d) := by
    show V m c main_v8 (((cfg0.win 7).blk t).view.emb (ix2 u d)) = V m c main_v8 (ix2 u d)
    refine congrArg (V m c main_v8) (funext fun a => Fin.ext ?_)
    match a with
    | ⟨0, _⟩ => show win0_7.index t (0 : Fin 2) * 1 + 1 * u.val = u.val; omega
    | ⟨1, _⟩ => show win0_7.index t (1 : Fin 2) * 768 + 1 * d.val = d.val; omega
  rw [e, V_bv, shapeCast_a_1a_apply]

/-- Position (u, n, r) of grid point `t`'s output block is position (t, n, r) of the output array. -/
theorem emb_out (t : Fin cfg0.N) (u : Fin 1) (n : Fin 768) (r : Fin 1024) :
    ((cfg0.win 8).blk t).view.emb (ix3 u n r) = ix3 (bOf t) n r := by
  obtain ⟨-, -, -, -, -, -, -, -, -, -, -, -, -, -, -, -, -, -, e0, e1, e2⟩ := idx_facts t
  funext a; apply Fin.ext
  match a with
  | ⟨0, _⟩ => show win0_8.index t (0 : Fin 3) * 1 + 1 * u.val = t.val; have := u.isLt; omega
  | ⟨1, _⟩ => show win0_8.index t (1 : Fin 3) * 768 + 1 * n.val = n.val; omega
  | ⟨2, _⟩ => show win0_8.index t (2 : Fin 3) * 1024 + 1 * r.val = r.val; omega

/-! ## The region's output array -/

/-- What the region's output array ends holding: at (b, n, c) the attended value of query token `c` of batch element
    `b` at feature `n`, plus the input re-read as [16, 768, 1024] there. -/
def arrG (c : Dev nD) : Buf (Elt Ideal) ((c : Thread nD τ).loc main_v10) := fun i =>
  cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (⟨(i 0).val, (i 0).isLt⟩ : Fin 16) (⟨(i 1).val, (i 1).isLt⟩ : Fin 768) (⟨(i 2).val, (i 2).isLt⟩ : Fin 1024)
    + shapeCast S16x768x1024 (m ((c : Thread nD τ).loc main_arg0)) shapeCasts_S16x1024x768_S16x768x1024 i

/-- The array's function at a position given by coordinates. -/
theorem arrG_ix3 (c : Dev nD) (b : Fin 16) (n : Fin 768) (r : Fin 1024) :
    arrG m c (ix3 b n r)
      = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b n r
        + shapeCast S16x768x1024 (m ((c : Thread nD τ).loc main_arg0)) shapeCasts_S16x1024x768_S16x768x1024 (ix3 b n r) := rfl

/-- What grid point `t` leaves at position (u, n, r) of its output block is the output array's function at (t, n, r). -/
theorem block_entry (c : Dev nD) (t : Fin cfg0.N) (u : Fin 1) (n : Fin 768) (r : Fin 1024) :
    blockG (iblk m c 0 t) (iblk m c 1 t) (iblk m c 2 t) (iblk m c 3 t) (iblk m c 4 t) (iblk m c 5 t) (iblk m c 6 t) (iblk m c 7 t) (ix3 u n r) = arrG m c (ix3 (bOf t) n r) :=
  (blockG_eq (bOf t) (iblk m c 0 t) (iblk m c 1 t) (iblk m c 2 t) (iblk m c 3 t) (iblk m c 4 t) (iblk m c 5 t) (iblk m c 6 t) (iblk m c 7 t) (m ((c : Thread nD τ).loc main_arg0))
    (shapeCast S16x768x1024 (m ((c : Thread nD τ).loc main_arg0)) shapeCasts_S16x1024x768_S16x768x1024)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (fun r n => blk_x m c t 0 r n) (fun u n r => blk_xr m c t u n r)
    (fun n d => blk_wq m c t n d) (fun d => blk_bq m c t 0 d)
    (fun n d => blk_wk m c t n d) (fun d => blk_bk m c t 0 d)
    (fun n d => blk_wv m c t n d) (fun d => blk_bv m c t 0 d) u n r).trans (arrG_ix3 m c (bOf t) n r).symm

/-- WHAT GRID POINT `t` WRITES BACK is block `t` of that array. -/
theorem flushed_eq (c : Dev nD) (t : Fin cfg0.N) :
    (dats m 0 c).flushed 8 t = ((cfg0.win 8).blk t).view.read (Elt Ideal) (arrG m c) := by
  show (cfg0.win 8).cut (grid0.coords t) ((dats m 0 c).after 8 t) = _
  rw [after0_8]
  unfold outsAt0
  rw [out_apply]
  funext j
  obtain ⟨u, n, r, rfl⟩ : ∃ (u : Fin 1) (n : Fin 768) (r : Fin 1024), j = ix3 u n r := ⟨j 0, j 1, j 2, eq_ix3 j⟩
  show blockG _ _ _ _ _ _ _ _ (ix3 u n r) = arrG m c (((cfg0.win 8).blk t).view.emb (ix3 u n r))
  rw [emb_out]
  exact block_entry m c t u n r

/-- An index of the output array is in grid point `t`'s block iff each coordinate is in the block's range on its axis. -/
theorem mem_blk (t : Fin cfg0.N) (i : S16x768x1024.Idx) :
    i ∈ ((cfg0.win 8).blk t).view.set ↔ ∀ a : Fin 3, win0_8.index t a * S1x768x1024.size a ≤ (i a).val
      ∧ (i a).val < win0_8.index t a * S1x768x1024.size a + S1x768x1024.size a := by
  show i ∈ ((View.whole main_v10).slice (win0_8.rect t)).set ↔ _
  rw [View.set_slice_whole, Rect.mem_set_unit]
  exact Iff.rfl

/-- Every position of the output array is in the block of the grid point of its batch coordinate. -/
theorem cover (i : S16x768x1024.Idx) :
    ∃ t : Fin cfg0.N, (cfg0.win 8).flush t = true ∧ i ∈ ((cfg0.win 8).blk t).view.set := by
  have hi0 : (i 0).val < 16 := (i 0).isLt
  have hi1 : (i 1).val < 768 := (i 1).isLt
  have hi2 : (i 2).val < 1024 := (i 2).isLt
  have hN : cfg0.N = 16 := N_0
  refine ⟨⟨(i 0).val, by rw [hN]; exact hi0⟩, flush0_8 _, ?_⟩
  obtain ⟨-, -, -, -, -, -, -, -, -, -, -, -, -, -, -, -, -, -, e0, e1, e2⟩ := idx_facts ⟨(i 0).val, by rw [hN]; exact hi0⟩
  rw [mem_blk]
  intro a
  match a with
  | ⟨0, _⟩ =>
    show win0_8.index _ (0 : Fin 3) * 1 ≤ (i 0).val ∧ (i 0).val < win0_8.index _ (0 : Fin 3) * 1 + 1
    rw [e0]; show (i 0).val * 1 ≤ (i 0).val ∧ (i 0).val < (i 0).val * 1 + 1; omega
  | ⟨1, _⟩ =>
    show win0_8.index _ (1 : Fin 3) * 768 ≤ (i 1).val ∧ (i 1).val < win0_8.index _ (1 : Fin 3) * 768 + 768
    rw [e1]; omega
  | ⟨2, _⟩ =>
    show win0_8.index _ (2 : Fin 3) * 1024 ≤ (i 2).val ∧ (i 2).val < win0_8.index _ (2 : Fin 3) * 1024 + 1024
    rw [e2]; omega

/-- THE OUTPUT ARRAY after the run. -/
theorem final (c : Dev nD) : (dats m 0 c).arrAt 8 cfg0.N = arrG m c :=
  (dats m 0 c).arrAt_eq_of_cover 8 (arrG m c) (fun t _ => flushed_eq m c t) cover

/-! ## The result -/

/-- The result array: the region's output re-read as [16, 1024, 768]. -/
def resG (c : Dev nD) : Buf (Elt Ideal) ((c : Thread nD τ).loc main_v11) :=
  shapeCast S16x1024x768 (arrG m c) shapeCasts_S16x768x1024_S16x1024x768

/-- The line after the region leaves that in the result buffer. -/
theorem tail_eq (c : Dev nD) :
    Pipeline.afterTail₀ cfgs (dats m) 0 (V0 m) [hostOps1] c main_v11 = resG m c := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.devRef .tc main_v10) = arrG m c from
    (Pipeline.withArrays_arr spec0 launch0.win.arr_inj c _ _ 8).trans (final m c)]
  rfl

/-- The re-reading of a [16, 768, 1024] array as [16, 1024, 768] reads, at `i`, the position with `i`'s row-major offset. -/
theorem recast_apply (A : S16x768x1024.Idx → EReal) (i : S16x1024x768.Idx) :
    shapeCast S16x1024x768 A shapeCasts_S16x768x1024_S16x1024x768 i = A (ix3 (tB i) (tN i) (tC i)) :=
  shapeCast_apply A shapeCasts_S16x768x1024_S16x1024x768 i (ix3 (tB i) (tN i) (tC i)) (by
    rw [Shape.rowMajor_val_three, Shape.rowMajor_val_three]; exact t_flat i)

/-- The input re-read as [16, 768, 1024], at that position, is the input at `i`. -/
theorem reread_apply (X : S16x1024x768.Idx → EReal) (i : S16x1024x768.Idx) :
    shapeCast S16x768x1024 X shapeCasts_S16x1024x768_S16x768x1024 (ix3 (tB i) (tN i) (tC i)) = X i :=
  shapeCast_apply X shapeCasts_S16x1024x768_S16x768x1024 (ix3 (tB i) (tN i) (tC i)) i (by
    rw [Shape.rowMajor_val_three, Shape.rowMajor_val_three]; exact (t_flat i).symm)

/-- The result is the specification's, of the argument arrays. -/
theorem res_eq (c : Dev nD) : resG m c = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  exact (recast_apply (arrG m c) i).trans ((arrG_ix3 m c (tB i) (tN i) (tC i)).trans
    (congrArg (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tB i) (tN i) (tC i) + ·) (reread_apply (m ((c : Thread nD τ).loc main_arg0)) i)))

/-- The run, read: the result array at the specification's function of the arguments, the arguments unchanged. -/
theorem run : θ_run defs (onTc (τ := τ) (main (F := Ideal))) ⟨m, fun _ => 0, ρ⟩ (fun r => ∀ c : Dev nD,
      r.2.mem ((c.tc : Thread nD τ).loc main_v11) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Arr

end
-- ==== Proof.Ref.lean ====
/-
  The reference program computes the block's specification.

  Its operations, read one at a time at an index: three linear layers (a contraction over the feature axis plus the bias
  broadcast over batch and token), the scores as a batched contraction of queries against keys over the feature axis,
  times the scale; the row maximum taken from −∞ (and once more against −∞, which changes nothing); the exponential of
  the difference; the row sum from zero; the quotient; the batched contraction of the soft-max against the values over
  the key axis; the transpose of the last two axes, the re-reading of that buffer as [16, 1024, 768], and the input
  added. Entry `i` of the result is therefore the attended value at the transposed position of `i`'s row-major offset,
  plus the input at `i`.
-/
import proofs.«143948_j55284819034537_2_alg».proof.Proof.Gen.ReferenceIdeal.Read
import proofs.«143948_j55284819034537_2_alg».proof.Proof.Spec
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- Two positions of a rank-3 array with the same three coordinates are equal. -/
theorem idx3_ext {n0 n1 n2 : Nat} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

theorem idx2_ext {n0 n1 : Nat} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)

theorem idx1_ext {n0 : Nat} {i j : (⟨1, ![n0]⟩ : Shape).Idx} (h0 : (i 0).val = (j 0).val) : i = j :=
  funext fun a => Fin.ext (by match a with | ⟨0, _⟩ => exact h0)

/-! ## The linear layers -/

/-- A contraction of token rows against weight rows plus the bias of the output feature: the projection. -/
theorem lin_form (x0 : (⟨S16x1024x768, .f32⟩ : BufTy).Contents (Elt Ideal)) (W : (⟨S768x768, .f32⟩ : BufTy).Contents (Elt Ideal)) (β : (⟨S768, .f32⟩ : BufTy).Contents (Elt Ideal)) (b : Fin 16) (c : Fin 1024) (d : Fin 768)
    (l : Fin 768 → S16x1024x768.Idx) (r : Fin 768 → S768x768.Idx) (z : S768.Idx)
    (hl : ∀ k, l k = ix3 b c k) (hr : ∀ k, r k = ix2 d k) (hz : z = ix1 d) :
    FloatOps.addf (F := Ideal) (φ := .f32) (∑ k : Fin 768, x0 (l k) * W (r k)) (β z) = proj x0 W β b c d := by
  subst hz
  unfold proj lin
  exact congrArg (· + β (ix1 d)) (Finset.sum_congr rfl fun k _ => by rw [hl k, hr k])

/-- A linear layer's output at (b, c, d): the specification's projection of token `c` of batch element `b`. -/
theorem q_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) (d : Fin 768) :
    val_main_v3 (F := Ideal) x0 x1 x2 (ix3 b c d) = proj x0 x1 x2 b c d := by
  rw [val_main_v3_apply, val_main_v0_apply, val_main_v2_apply, val_main_v1_apply]
  exact lin_form x0 x1 x2 b c d _ _ _ (fun k => idx3_ext rfl rfl rfl) (fun k => idx2_ext rfl rfl) (idx1_ext rfl)

theorem k_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) (d : Fin 768) :
    val_main_v7 (F := Ideal) x0 x3 x4 (ix3 b c d) = proj x0 x3 x4 b c d := by
  rw [val_main_v7_apply, val_main_v4_apply, val_main_v6_apply, val_main_v5_apply]
  exact lin_form x0 x3 x4 b c d _ _ _ (fun k => idx3_ext rfl rfl rfl) (fun k => idx2_ext rfl rfl) (idx1_ext rfl)

theorem v_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) (d : Fin 768) :
    val_main_v11 (F := Ideal) x0 x5 x6 (ix3 b c d) = proj x0 x5 x6 b c d := by
  rw [val_main_v11_apply, val_main_v8_apply, val_main_v10_apply, val_main_v9_apply]
  exact lin_form x0 x5 x6 b c d _ _ _ (fun k => idx3_ext rfl rfl rfl) (fun k => idx2_ext rfl rfl) (idx1_ext rfl)

/-! ## The scores and their soft-max -/

/-- The scaled score of query token `c` against key token `e` in batch element `b`. -/
theorem s_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c e : Fin 1024) :
    val_main_v14 (F := Ideal) x0 x1 x2 x3 x4 (ix3 b c e)
      = score (proj x0 x1 x2 b c) (fun e => proj x0 x3 x4 b e) e := by
  rw [val_main_v14_apply, val_main_v12_apply, val_main_v13_apply, val_main_cst_apply]
  unfold score
  refine congrArg (· * scale) (Finset.sum_congr rfl fun d _ => ?_)
  have el : lidx_main_v12 (ix3 b c e) d = ix3 b c d := idx3_ext rfl rfl rfl
  have er : ridx_main_v12 (ix3 b c e) d = ix3 b e d := idx3_ext rfl rfl rfl
  rw [el, er]
  exact congrArg₂ (· * ·) (q_apply x0 x1 x2 x3 x4 x5 x6 b c d) (k_apply x0 x1 x2 x3 x4 x5 x6 b e d)

/-- The key axis of the scores can be folded away. -/
theorem reduces_keys : S16x1024x1024.Reduces [2] S16x1024 := by decide

/-- A row index of the scores with key position `k` put back is (b, c, k). -/
theorem lift_key (b : Fin 16) (c : Fin 1024) (k : Fin (S16x1024x1024.size 2)) :
    reduces_keys.lift (ix2 b c) k = ix3 b c (⟨k.val, k.isLt⟩ : Fin 1024) := by
  funext a; apply Fin.ext; fin_cases a <;> rfl

/-- The host's row maximum from −∞ is the specification's `top` of the row. -/
theorem rowmax_apply (S : S16x1024x1024.Idx → EReal) (σ : Fin 1024 → EReal) (b : Fin 16) (c : Fin 1024)
    (h : ∀ e, S (ix3 b c e) = σ e) :
    Host.reduce (FloatOps.maximumf (F := Ideal) (φ := .f32)) S (val_main_cst_0 (F := Ideal)) reducesTo_S16x1024x1024_S16x1024_d2 h_S_ (ix2 b c) = top σ := by
  rw [Host.reduce_eq_fold_single (FloatOps.maximumf (F := Ideal) (φ := .f32)) S _ reducesTo_S16x1024x1024_S16x1024_d2 reduces_keys h_S_]
  have e : (S ∘ reduces_keys.lift (ix2 b c)) = σ := funext fun k => (congrArg S (lift_key b c k)).trans (h _)
  rw [e]
  rfl

/-- The row maximum the reference subtracts: the largest score of the row, taken from −∞. The second maximum against
    −∞ changes nothing, since the fold already starts there. -/
theorem top_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) :
    val_main_v17 (F := Ideal) x0 x1 x2 x3 x4 (ix2 b c)
      = top (score (proj x0 x1 x2 b c) (fun e => proj x0 x3 x4 b e)) := by
  rw [val_main_v17_apply, val_main_v16_apply, val_main_cst_1_apply]
  unfold val_main_v15
  rw [rowmax_apply _ _ b c (fun e => s_apply x0 x1 x2 x3 x4 x5 x6 b c e)]
  exact max_eq_right ((Finset.le_fold_max _).mpr (Or.inl le_rfl))

/-- The soft-max weight at (b, c, e). -/
theorem w_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c e : Fin 1024) :
    val_main_v21 (F := Ideal) x0 x1 x2 x3 x4 (ix3 b c e)
      = weight (score (proj x0 x1 x2 b c) (fun e => proj x0 x3 x4 b e)) e := by
  rw [val_main_v21_apply, val_main_v20_apply, val_main_v19_apply, val_main_v18_apply]
  have ei : idx_main_v18 (idx_main_v19 (ix3 b c e)) = ix2 b c := idx2_ext rfl rfl
  rw [ei, s_apply x0 x1 x2 x3 x4 x5 x6 b c e, top_apply x0 x1 x2 x3 x4 x5 x6 b c]
  rfl

/-- The row sum of the weights, from zero. -/
theorem wsum_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) :
    val_main_v22 (F := Ideal) x0 x1 x2 x3 x4 (ix2 b c)
      = ∑ e : Fin 1024, weight (score (proj x0 x1 x2 b c) (fun e => proj x0 x3 x4 b e)) e := by
  rw [val_main_v22_apply, val_main_cst_2_apply]
  show Ideal.ofBits .f32 0x00000000#32 + _ = _
  rw [Ideal.ofBits_zero_f32, zero_add]
  refine Finset.sum_congr rfl fun e' _ => ?_
  have ei : idx_main_v22 (ix2 b c) e' = ix3 b c e' := idx3_ext rfl rfl rfl
  rw [ei]
  exact w_apply x0 x1 x2 x3 x4 x5 x6 b c e'

/-- The soft-max at (b, c, e): the weight over the row's sum of weights. -/
theorem p_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c e : Fin 1024) :
    val_main_v25 (F := Ideal) x0 x1 x2 x3 x4 (ix3 b c e)
      = soft (score (proj x0 x1 x2 b c) (fun e => proj x0 x3 x4 b e)) e := by
  rw [val_main_v25_apply, val_main_v24_apply, val_main_v23_apply]
  have ei : idx_main_v23 (idx_main_v24 (ix3 b c e)) = ix2 b c := idx2_ext rfl rfl
  rw [ei, w_apply x0 x1 x2 x3 x4 x5 x6 b c e, wsum_apply x0 x1 x2 x3 x4 x5 x6 b c]
  rfl

/-! ## The attended values, transposed and re-read -/

/-- The attended value at (b, c, n). -/
theorem o_apply (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) (b : Fin 16) (c : Fin 1024) (n : Fin 768) :
    val_main_v26 (F := Ideal) x0 x1 x2 x3 x4 x5 x6 (ix3 b c n) = cell x0 x1 x2 x3 x4 x5 x6 b n c := by
  rw [val_main_v26_apply]
  unfold cell mix
  refine Finset.sum_congr rfl fun e _ => ?_
  have el : lidx_main_v26 (ix3 b c n) e = ix3 b c e := idx3_ext rfl rfl rfl
  have er : ridx_main_v26 (ix3 b c n) e = ix3 b e n := idx3_ext rfl rfl rfl
  rw [el, er, p_apply x0 x1 x2 x3 x4 x5 x6 b c e, v_apply x0 x1 x2 x3 x4 x5 x6 b e n]
  exact mul_comm _ _

/-- The reference's result is the specification's. -/
theorem result_eq (x0 : (⟨S16x1024x768, .f32⟩ : BufTy).Contents (Elt Ideal)) (x1 : (⟨S768x768, .f32⟩ : BufTy).Contents (Elt Ideal)) (x2 : (⟨S768, .f32⟩ : BufTy).Contents (Elt Ideal)) (x3 : (⟨S768x768, .f32⟩ : BufTy).Contents (Elt Ideal)) (x4 : (⟨S768, .f32⟩ : BufTy).Contents (Elt Ideal)) (x5 : (⟨S768x768, .f32⟩ : BufTy).Contents (Elt Ideal)) (x6 : (⟨S768, .f32⟩ : BufTy).Contents (Elt Ideal)) :
    val_main_v29 (F := Ideal) x0 x1 x2 x3 x4 x5 x6 = result x0 x1 x2 x3 x4 x5 x6 := by
  funext i
  rw [val_main_v29_apply, val_main_v28_apply, val_main_v27_apply]
  have e : idx_main_v27 (idx_main_v28 i) = ix3 (tB i) (tC i) (tN i) := idx3_ext rfl rfl rfl
  rw [e, o_apply]
  rfl

end Cert.ReferenceIdeal.RefValue

end
-- ==== Proof.lean ====
/-
  The five claims of this certificate, assembled.

  The kernel and the reference compute one function of their seven arguments over the extended reals: single-head
  self-attention of each of sixteen batch elements (three linear layers, scaled scores, a soft-max along the key axis,
  the weighted sum of the values), laid out transposed, re-read in the input's layout and added to the input
  (`Cert.Attn.result`). The kernel's run leaves that in its result array (Proof/Array.lean, over the block read in
  Proof/Block.lean and the body's arithmetic in Proof/Payload.lean); the reference's run is read operation by operation
  (Proof/Ref.lean). The two sides differ only in the order of the factors in the last contraction and in a second
  maximum against −∞ on the reference's side; no step uses that the inputs are finite. The three programs' frames are
  their runs with the result dropped, and the idealized kernel is the kernel's own text, so nothing is owed for it.
-/
import proofs.«143948_j55284819034537_2_alg».proof.Defs
import proofs.«143948_j55284819034537_2_alg».proof.Proof.Gen.Kernel
import proofs.«143948_j55284819034537_2_alg».proof.Proof.Gen.Kernel.Skeleton
import proofs.«143948_j55284819034537_2_alg».proof.Proof.Gen.Kernel.Launch
import proofs.«143948_j55284819034537_2_alg».proof.Proof.Gen.Kernel.Points
import proofs.«143948_j55284819034537_2_alg».proof.Proof.Gen.Kernel.Frame
import proofs.«143948_j55284819034537_2_alg».proof.Proof.Gen.KernelIdeal
import proofs.«143948_j55284819034537_2_alg».proof.Proof.Gen.KernelIdeal.Skeleton
import proofs.«143948_j55284819034537_2_alg».proof.Proof.Gen.KernelIdeal.Launch
import proofs.«143948_j55284819034537_2_alg».proof.Proof.Gen.KernelIdeal.Points
import proofs.«143948_j55284819034537_2_alg».proof.Proof.Gen.KernelIdeal.Frame
import proofs.«143948_j55284819034537_2_alg».proof.Proof.Gen.ReferenceIdeal
import proofs.«143948_j55284819034537_2_alg».proof.Proof.Gen.ReferenceIdeal.Run
import proofs.«143948_j55284819034537_2_alg».proof.Proof.Gen.ReferenceIdeal.Read
import proofs.«143948_j55284819034537_2_alg».proof.Proof.Gen.Pre_finite_inputs
import proofs.«143948_j55284819034537_2_alg».proof.Proof.Array
import proofs.«143948_j55284819034537_2_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the specification's function of those
    arguments in their result arrays. -/
theorem algebraic : Cert.algebraic_KernelIdeal_ReferenceIdeal := by
  intro m ρ m' ρ' _ hagree
  refine ⟨fun c => Cert.KernelIdeal.Arr.resG m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2.1, (hagree c).2.2.2.2.2.2, Cert.ReferenceIdeal.RefValue.result_eq]
  exact (Cert.KernelIdeal.Arr.res_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
